-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S100000x64 : Shape := ⟨2, ![100000, 64]⟩
abbrev S_ : Shape := ⟨0, ![]⟩

class Facts : Prop where
  bcast_S_S1000000 : S_.BroadcastsInDim S1000000 (![] : Fin 0 → Fin S1000000.rank)
  reducesTo_S1000000_S_d0 : S1000000.ReducesTo [0] S_
  h_S_ : 0 < S_.numel
  bcast_S_S100000x64 : S_.BroadcastsInDim S100000x64 (![] : Fin 0 → Fin S100000x64.rank)
  reducesTo_S100000x64_S_d0_1 : S100000x64.ReducesTo [0, 1] S_

variable [Facts]

def fn_part1 {F : FTy → Type} [FloatOps F] (main_arg6 : FVec F S100000x64 .f32) (main_v13 : IVec S_ 1) (main_v16 : IVec S100000x64 1) : IVec S_ 1 :=
  let main_c_5 : IVec S_ 1 := constantI S_ 1 1#1
  let main_v17 : IVec S_ 1 := (fun x v => Host.reduce IntOp.andi x v reducesTo_S100000x64_S_d0_1 h_S_) main_v16 main_c_5
  let main_v18 : IVec S_ 1 := andi main_v13 main_v17
  let main_v19 : FVec F S100000x64 .f32 := Host.absf main_arg6
  let main_cst_6 : FVec F S_ .f32 := constant S_ .f32 0x7F800000#32
  let main_v20 : FVec F S100000x64 .f32 := broadcastInDim S100000x64 ![] bcast_S_S100000x64 main_cst_6
  let main_v21 : IVec S100000x64 1 := cmpf .olt main_v19 main_v20
  let main_c_7 : IVec S_ 1 := constantI S_ 1 1#1
  let main_v22 : IVec S_ 1 := (fun x v => Host.reduce IntOp.andi x v reducesTo_S100000x64_S_d0_1 h_S_) main_v21 main_c_7
  let main_v23 : IVec S_ 1 := andi main_v18 main_v22
  main_v23

def fn {F : FTy → Type} [FloatOps F] (main_arg0 : IVec S1000000 32) (main_arg1 : IVec S1000000 32) (main_arg2 : FVec F S1000000 .f32) (main_arg3 : FVec F S100000x64 .f32) (main_arg4 : FVec F S100000x64 .f32) (main_arg5 : FVec F S100000x64 .f32) (main_arg6 : FVec F S100000x64 .f32) : IVec S_ 1 :=
  let main_v0 : FVec F S1000000 .f32 := Host.absf main_arg2
  let main_cst : FVec F S_ .f32 := constant S_ .f32 0x7F800000#32
  let main_v1 : FVec F S1000000 .f32 := broadcastInDim S1000000 ![] bcast_S_S1000000 main_cst
  let main_v2 : IVec S1000000 1 := cmpf .olt main_v0 main_v1
  let main_c : IVec S_ 1 := constantI S_ 1 1#1
  let main_v3 : IVec S_ 1 := (fun x v => Host.reduce IntOp.andi x v reducesTo_S1000000_S_d0 h_S_) main_v2 main_c
  let main_v4 : FVec F S100000x64 .f32 := Host.absf main_arg3
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S100000x64 .f32 := Host.absf main_arg4
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S100000x64 .f32 := Host.absf main_arg5
  let main_cst_4 : FVec F S_ .f32 := constant S_ .f32 0x7F800000#32
  let main_v15 : FVec F S100000x64 .f32 := broadcastInDim S100000x64 ![] bcast_S_S100000x64 main_cst_4
  let main_v16 : IVec S100000x64 1 := cmpf .olt main_v14 main_v15
  fn_part1 (F := F) main_arg6 main_v13 main_v16
-- ==== Kernel.lean ====
abbrev S1000000 : Shape := ⟨1, ![1000000]⟩
abbrev S100000x64 : Shape := ⟨2, ![100000, 64]⟩
abbrev S50000x128 : Shape := ⟨2, ![50000, 128]⟩
abbrev S5000x128 : Shape := ⟨2, ![5000, 128]⟩
abbrev S_ : Shape := ⟨0, ![]⟩
abbrev S1000000x1 : Shape := ⟨2, ![1000000, 1]⟩
abbrev S1000000x64 : Shape := ⟨2, ![1000000, 64]⟩
abbrev S30000x64 : Shape := ⟨2, ![30000, 64]⟩
abbrev S70000x64 : Shape := ⟨2, ![70000, 64]⟩

abbrev nBuf : Space → Nat
  | .hbm => 34
  | .vmem => 14
  | .smem => 0
  | _ => 0

abbrev bufTy : (tb : Table) → Fin (tcTables nBuf tb) → BufTy
  | .hbm, ⟨0, _⟩ => ⟨S1000000, .i32⟩
  | .hbm, ⟨1, _⟩ => ⟨S1000000, .i32⟩
  | .hbm, ⟨2, _⟩ => ⟨S1000000, .f32⟩
  | .hbm, ⟨3, _⟩ => ⟨S100000x64, .f32⟩
  | .hbm, ⟨4, _⟩ => ⟨S100000x64, .f32⟩
  | .hbm, ⟨5, _⟩ => ⟨S100000x64, .f32⟩
  | .hbm, ⟨6, _⟩ => ⟨S100000x64, .f32⟩
  | .hbm, ⟨7, _⟩ => ⟨S50000x128, .f32⟩
  | .hbm, ⟨8, _⟩ => ⟨S50000x128, .f32⟩
  | .hbm, ⟨9, _⟩ => ⟨S50000x128, .f32⟩
  | .hbm, ⟨10, _⟩ => ⟨S100000x64, .f32⟩
  | .hbm, ⟨11, _⟩ => ⟨S_, .i32⟩
  | .hbm, ⟨12, _⟩ => ⟨S1000000, .i32⟩
  | .hbm, ⟨13, _⟩ => ⟨S1000000, .i1⟩
  | .hbm, ⟨14, _⟩ => ⟨S_, .i32⟩
  | .hbm, ⟨15, _⟩ => ⟨S1000000, .i32⟩
  | .hbm, ⟨16, _⟩ => ⟨S1000000, .i32⟩
  | .hbm, ⟨17, _⟩ => ⟨S1000000, .i32⟩
  | .hbm, ⟨18, _⟩ => ⟨S1000000x1, .i32⟩
  | .hbm, ⟨19, _⟩ => ⟨S1000000x64, .f32⟩
  | .hbm, ⟨20, _⟩ => ⟨S1000000x1, .f32⟩
  | .hbm, ⟨21, _⟩ => ⟨S1000000x64, .f32⟩
  | .hbm, ⟨22, _⟩ => ⟨S1000000x64, .f32⟩
  | .hbm, ⟨23, _⟩ => ⟨S_, .f32⟩
  | .hbm, ⟨24, _⟩ => ⟨S100000x64, .f32⟩
  | .hbm, ⟨25, _⟩ => ⟨S1000000x1, .i32⟩
  | .hbm, ⟨26, _⟩ => ⟨S100000x64, .f32⟩
  | .hbm, ⟨27, _⟩ => ⟨S50000x128, .f32⟩
  | .hbm, ⟨28, _⟩ => ⟨S50000x128, .f32⟩
  | .hbm, ⟨29, _⟩ => ⟨S50000x128, .f32⟩
  | .hbm, ⟨30, _⟩ => ⟨S50000x128, .f32⟩
  | .hbm, ⟨31, _⟩ => ⟨S100000x64, .f32⟩
  | .hbm, ⟨32, _⟩ => ⟨S30000x64, .f32⟩
  | .hbm, ⟨33, _⟩ => ⟨S70000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | _, _ => ⟨S1000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S100000x64_S50000x128 : S100000x64.ShapeCasts S50000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S50000x128_S100000x64 : S50000x128.ShapeCasts S100000x64
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  slices_S100000x64_S30000x64_0_0 : S100000x64.Slices ![0, 0] S30000x64
  slices_S100000x64_S70000x64_30000_0 : S100000x64.Slices ![30000, 0] S70000x64
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

abbrev win0_0 : Pipeline.Window sig grid0 :=
  Pipeline.Window.ofSpec (Memref.whole main_v0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1000000 : Shape := ⟨1, ![1000000]⟩
abbrev S100000x64 : Shape := ⟨2, ![100000, 64]⟩
abbrev S1000000x1 : Shape := ⟨2, ![1000000, 1]⟩
abbrev S_ : Shape := ⟨0, ![]⟩
abbrev S1000000x64 : Shape := ⟨2, ![1000000, 64]⟩
abbrev S30000x64 : Shape := ⟨2, ![30000, 64]⟩
abbrev S70000x64 : Shape := ⟨2, ![70000, 64]⟩

abbrev nBuf : Space → Nat
  | .hbm => 34
  | .vmem => 0
  | .smem => 0
  | _ => 0

abbrev bufTy : (tb : Table) → Fin (tcTables nBuf tb) → BufTy
  | .hbm, ⟨0, _⟩ => ⟨S1000000, .i32⟩
  | .hbm, ⟨1, _⟩ => ⟨S1000000, .i32⟩
  | .hbm, ⟨2, _⟩ => ⟨S1000000, .f32⟩
  | .hbm, ⟨3, _⟩ => ⟨S100000x64, .f32⟩
  | .hbm, ⟨4, _⟩ => ⟨S100000x64, .f32⟩
  | .hbm, ⟨5, _⟩ => ⟨S100000x64, .f32⟩
  | .hbm, ⟨6, _⟩ => ⟨S100000x64, .f32⟩
  | .hbm, ⟨7, _⟩ => ⟨S100000x64, .f32⟩
  | .hbm, ⟨8, _⟩ => ⟨S1000000x1, .f32⟩
  | .hbm, ⟨9, _⟩ => ⟨S_, .i32⟩
  | .hbm, ⟨10, _⟩ => ⟨S1000000, .i32⟩
  | .hbm, ⟨11, _⟩ => ⟨S1000000, .i1⟩
  | .hbm, ⟨12, _⟩ => ⟨S_, .i32⟩
  | .hbm, ⟨13, _⟩ => ⟨S1000000, .i32⟩
  | .hbm, ⟨14, _⟩ => ⟨S1000000, .i32⟩
  | .hbm, ⟨15, _⟩ => ⟨S1000000, .i32⟩
  | .hbm, ⟨16, _⟩ => ⟨S1000000x1, .i32⟩
  | .hbm, ⟨17, _⟩ => ⟨S1000000x64, .f32⟩
  | .hbm, ⟨18, _⟩ => ⟨S1000000x64, .f32⟩
  | .hbm, ⟨19, _⟩ => ⟨S1000000x64, .f32⟩
  | .hbm, ⟨20, _⟩ => ⟨S_, .f32⟩
  | .hbm, ⟨21, _⟩ => ⟨S100000x64, .f32⟩
  | .hbm, ⟨22, _⟩ => ⟨S1000000x1, .i32⟩
  | .hbm, ⟨23, _⟩ => ⟨S100000x64, .f32⟩
  | .hbm, ⟨24, _⟩ => ⟨S100000x64, .f32⟩
  | .hbm, ⟨25, _⟩ => ⟨S_, .f32⟩
  | .hbm, ⟨26, _⟩ => ⟨S100000x64, .f32⟩
  | .hbm, ⟨27, _⟩ => ⟨S100000x64, .f32⟩
  | .hbm, ⟨28, _⟩ => ⟨S_, .f32⟩
  | .hbm, ⟨29, _⟩ => ⟨S100000x64, .f32⟩
  | .hbm, ⟨30, _⟩ => ⟨S100000x64, .f32⟩
  | .hbm, ⟨31, _⟩ => ⟨S100000x64, .f32⟩
  | .hbm, ⟨32, _⟩ => ⟨S30000x64, .f32⟩
  | .hbm, ⟨33, _⟩ => ⟨S70000x64, .f32⟩
  | _, _ => ⟨S1000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  bcast_S1000000_S1000000x1_0 : S1000000.BroadcastsInDim S1000000x1 (![0] : Fin 1 → Fin S1000000x1.rank)
  bcast_S_S1000000 : S_.BroadcastsInDim S1000000 (![] : Fin 0 → Fin S1000000.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  slices_S100000x64_S30000x64_0_0 : S100000x64.Slices ![0, 0] S30000x64
  slices_S100000x64_S70000x64_30000_0 : S100000x64.Slices ![30000, 0] S70000x64
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

class Facts : Prop extends Facts₀ where

variable [Facts]
-- ==== Proof.WholeRun.lean ====
/-
  The two-pass program's run with EVERY buffer that outlives the passes read back.

  @main is five stretches: host operations, the difference pass, host operations, the blending pass, host operations.
  The buffers at each boundary are a fold from the launch memory (each host stretch applies its operations, each pass
  replaces its arrays by what its write-backs leave); the run below ends with every such buffer at the last fold.
-/
import proofs.«110629_j35003983462573_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting, and every
    buffer that is not a pass's staging buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

end Cert.KernelIdeal.Whole

end
-- ==== Proof.RegionArrays.lean ====
/-
  What each of the two tiled element-wise passes leaves in its output array, as ONE function of the arrays the pass
  is entered with, index by index.

  Both passes walk the packed [50000,128] arrays in ten blocks of 5000 rows; at block `t` every operand's block and the
  output's block are rows 5000·t … 5000·t + 4999, all 128 columns. The body loads the whole blocks, applies an element-wise
  formula and stores the whole block, so block `t` of the output is the formula of block `t` of the operands, and the ten
  blocks tile the array: the array ends at the formula of the whole operand arrays.
    * the difference pass:   out = a − b
    * the blending pass:     out = c₁ · (a + b) + c₂ · e     (c₁, c₂ the two f32 words the body splats)
  Stated for ANY contents `V` the pass is entered with and at any float instance.
-/
import proofs.«110629_j35003983462573_2_alg».proof.Proof.Gen.KernelIdeal.Frame
import Idealize.ShloMosaic.Lib.Pipeline.Value

noncomputable section

namespace Cert.KernelIdeal.Arrays

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The bodies' rectangles sit at offset zero on both axes. -/
theorem zero_offsets : (![0, 0] : Fin 2 → Nat) = fun _ => 0 := funext fun a => by fin_cases a <;> rfl

/-! ## The difference pass -/

/-- `a − b`, element by element, on the packed arrays. -/
abbrev diffOf (a b : S50000x128.Idx → Elt F .f32) : S50000x128.Idx → Elt F .f32 := fun i => FloatOps.subf (a i) (b i)

/-- The body's stored value is the difference of its two loaded blocks (its two shape casts keep the shape). -/
theorem diff_payload (x0 x1 : Vec F S5000x128 .f32) : k0_pay1 x0 x1 = subf x0 x1 := by
  unfold k0_pay1
  rw [shapeCast_self, shapeCast_self]

/-- At every grid point the three windows sit on the same block, block `t` along the rows, block 0 along the columns. -/
theorem diff_blocks : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) ≤ 9 ∧ win0_2.index t (1 : Fin 2) = 0 :=
  (by decide +kernel : ∀ t : Fin grid0.N, _)

/-- Every row block is some grid point's. -/
theorem diff_onto : ∀ q : Fin 10, ∃ t : Fin cfg0.N, win0_2.index t = ![q.val, 0] :=
  (by decide +kernel : ∀ q : Fin 10, ∃ t : Fin grid0.N, win0_2.index t = ![q.val, 0])

/-- What point `t` writes back is block `t` of the difference of the two operand arrays. -/
theorem diff_flushed (c : Dev nD) (t : Fin cfg0.N) :
    (dat0 V c).flushed 2 t = ((cfg0.win 2).blk t).view.read (Elt F) (diffOf (V c main_v0) (V c main_v1)) := by
  show (cfg0.win 2).cut (grid0.coords t) ((dat0 V c).after 2 t) = _
  rw [after0_2]
  unfold out0_2
  rw [View.canon_unit_zero zero_offsets]
  simp only [View.ld_unit_zero (S := S5000x128) zero_offsets]
  rw [diff_payload]
  obtain ⟨e0, e1, e2, e3, -, -⟩ := diff_blocks t
  funext j
  show FloatOps.subf (V c main_v0 (((cfg0.win 0).blk t).view.emb j)) (V c main_v1 (((cfg0.win 1).blk t).view.emb j))
    = FloatOps.subf (V c main_v0 (((cfg0.win 2).blk t).view.emb j)) (V c main_v1 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 5000 + 1 * (j 0).val = win0_2.index t (0 : Fin 2) * 5000 + 1 * (j 0).val; omega
    | ⟨1, _⟩ => show win0_1.index t (1 : Fin 2) * 128 + 1 * (j 1).val = win0_2.index t (1 : Fin 2) * 128 + 1 * (j 1).val; omega
  rw [h0, h1]

/-- An index of the output array is in point `t`'s block iff each coordinate is in the block's range on its axis. -/
theorem diff_mem_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v2).slice (win0_2.rect t)).set ↔ _
  rw [View.set_slice_whole, Rect.mem_set_unit]
  exact Iff.rfl

/-- The ten blocks cover the output array: row `r` is in block `r / 5000`. -/
theorem diff_cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := diff_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [diff_mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- THE OUTPUT ARRAY of the difference pass: the difference of the two operand arrays as the pass finds them. -/
theorem diff_array (c : Dev nD) : (dat0 V c).arrAt 2 cfg0.N = diffOf (V c main_v0) (V c main_v1) :=
  (dat0 V c).arrAt_eq_of_cover 2 (diffOf (V c main_v0) (V c main_v1)) (fun t _ => diff_flushed V c t) diff_cover

/-! ## The blending pass -/

/-- `c₁ · (a + b) + c₂ · e`, element by element, on the packed arrays; c₁ and c₂ are the body's two f32 words. -/
abbrev blendOf (a b e : S50000x128.Idx → Elt F .f32) : S50000x128.Idx → Elt F .f32 := fun i =>
  FloatOps.addf (FloatOps.mulf (Scalar.ofBits .f32 0x3F666666#32) (FloatOps.addf (a i) (b i)))
    (FloatOps.mulf (Scalar.ofBits .f32 0x3DCCCCCD#32) (e i))

/-- The body's stored value is that formula of its three loaded blocks. -/
theorem blend_payload (x0 x1 x2 : Vec F S5000x128 .f32) :
    k1_pay1 x0 x1 x2 = fun y => FloatOps.addf (FloatOps.mulf (Scalar.ofBits .f32 0x3F666666#32) (FloatOps.addf (x0 y) (x1 y)))
      (FloatOps.mulf (Scalar.ofBits .f32 0x3DCCCCCD#32) (x2 y)) := by
  unfold k1_pay1
  rw [shapeCast_self, shapeCast_self, shapeCast_self]
  rfl

/-- At every grid point the four windows sit on the same block, block `t` along the rows, block 0 along the columns. -/
theorem blend_blocks : ∀ t : Fin cfg1.N, win1_0.index t (0 : Fin 2) = win1_3.index t (0 : Fin 2)
    ∧ win1_0.index t (1 : Fin 2) = win1_3.index t (1 : Fin 2)
    ∧ win1_1.index t (0 : Fin 2) = win1_3.index t (0 : Fin 2)
    ∧ win1_1.index t (1 : Fin 2) = win1_3.index t (1 : Fin 2)
    ∧ win1_2.index t (0 : Fin 2) = win1_3.index t (0 : Fin 2)
    ∧ win1_2.index t (1 : Fin 2) = win1_3.index t (1 : Fin 2)
    ∧ win1_3.index t (0 : Fin 2) ≤ 9 ∧ win1_3.index t (1 : Fin 2) = 0 :=
  (by decide +kernel : ∀ t : Fin grid1.N, _)

/-- Every row block is some grid point's. -/
theorem blend_onto : ∀ q : Fin 10, ∃ t : Fin cfg1.N, win1_3.index t = ![q.val, 0] :=
  (by decide +kernel : ∀ q : Fin 10, ∃ t : Fin grid1.N, win1_3.index t = ![q.val, 0])

/-- What point `t` writes back is block `t` of the blend of the three operand arrays. -/
theorem blend_flushed (c : Dev nD) (t : Fin cfg1.N) :
    (dat1 V c).flushed 3 t = ((cfg1.win 3).blk t).view.read (Elt F) (blendOf (V c main_v17) (V c main_v18) (V c main_v19)) := by
  show (cfg1.win 3).cut (grid1.coords t) ((dat1 V c).after 3 t) = _
  rw [after1_3]
  unfold out1_3
  rw [View.canon_unit_zero zero_offsets]
  simp only [View.ld_unit_zero (S := S5000x128) zero_offsets]
  rw [blend_payload]
  obtain ⟨e0, e1, e2, e3, e4, e5, -, -⟩ := blend_blocks t
  funext j
  show FloatOps.addf (FloatOps.mulf (Scalar.ofBits .f32 0x3F666666#32) (FloatOps.addf (V c main_v17 (((cfg1.win 0).blk t).view.emb j)) (V c main_v18 (((cfg1.win 1).blk t).view.emb j))))
      (FloatOps.mulf (Scalar.ofBits .f32 0x3DCCCCCD#32) (V c main_v19 (((cfg1.win 2).blk t).view.emb j)))
    = FloatOps.addf (FloatOps.mulf (Scalar.ofBits .f32 0x3F666666#32) (FloatOps.addf (V c main_v17 (((cfg1.win 3).blk t).view.emb j)) (V c main_v18 (((cfg1.win 3).blk t).view.emb j))))
      (FloatOps.mulf (Scalar.ofBits .f32 0x3DCCCCCD#32) (V c main_v19 (((cfg1.win 3).blk t).view.emb j)))
  have h0 : ((cfg1.win 0).blk t).view.emb j = ((cfg1.win 3).blk t).view.emb j := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * (j 1).val = win1_3.index t (1 : Fin 2) * 128 + 1 * (j 1).val; omega
  have h1 : ((cfg1.win 1).blk t).view.emb j = ((cfg1.win 3).blk t).view.emb j := by
    funext a; apply Fin.ext
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 128 + 1 * (j 1).val = win1_3.index t (1 : Fin 2) * 128 + 1 * (j 1).val; omega
  have h2 : ((cfg1.win 2).blk t).view.emb j = ((cfg1.win 3).blk t).view.emb j := by
    funext a; apply Fin.ext
    match a with
    | ⟨0, _⟩ => show win1_2.index t (0 : Fin 2) * 5000 + 1 * (j 0).val = win1_3.index t (0 : Fin 2) * 5000 + 1 * (j 0).val; omega
    | ⟨1, _⟩ => show win1_2.index t (1 : Fin 2) * 128 + 1 * (j 1).val = win1_3.index t (1 : Fin 2) * 128 + 1 * (j 1).val; omega
  rw [h0, h1, h2]

/-- An index of the output array is in point `t`'s block iff each coordinate is in the block's range on its axis. -/
theorem blend_mem_block (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v20).slice (win1_3.rect t)).set ↔ _
  rw [View.set_slice_whole, Rect.mem_set_unit]
  exact Iff.rfl

/-- The ten blocks cover the output array: row `r` is in block `r / 5000`. -/
theorem blend_cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ := blend_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [blend_mem_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- THE OUTPUT ARRAY of the blending pass: the blend of the three operand arrays as the pass finds them. -/
theorem blend_array (c : Dev nD) :
    (dat1 V c).arrAt 3 cfg1.N = blendOf (V c main_v17) (V c main_v18) (V c main_v19) :=
  (dat1 V c).arrAt_eq_of_cover 3 (blendOf (V c main_v17) (V c main_v18) (V c main_v19)) (fun t _ => blend_flushed V c t) blend_cover

end Cert.KernelIdeal.Arrays

end
-- ==== Proof.LibRepack.lean ====
/-
  Repacking an array into another shape with the same number of elements (row-major order kept) and back.

  A repacked array reads, at an index, the original at the index with the same row-major position. So a function
  applied element by element to repacked arrays IS the repacking of the function applied to the originals, and
  unpacking it again gives the function of the originals: a [n,64] array handled as [n/2,128] and unpacked is
  untouched by the detour.
-/
import Idealize.ShloMosaic.PureOps
import Idealize.ShloMosaic.Lib.Pipeline.Value

namespace Cert.LibRepack

open Idealize.ShloMosaic

variable {s t : Shape} {α β γ δ : Type}

/-- A two-argument element-wise function of two repacked arrays, unpacked, is the function of the two arrays. -/
theorem unpack_map₂ (f : α → β → δ) (x : s.Idx → α) (y : s.Idx → β) (h : s.ShapeCasts t) (h' : t.ShapeCasts s) :
    shapeCast s (fun i => f (shapeCast t x h i) (shapeCast t y h i)) h' = fun j => f (x j) (y j) :=
  shapeCast_shapeCast (fun j => f (x j) (y j)) h h'

/-- A three-argument element-wise function of three repacked arrays, unpacked, is the function of the three arrays. -/
theorem unpack_map₃ (f : α → β → γ → δ) (x : s.Idx → α) (y : s.Idx → β) (z : s.Idx → γ) (h : s.ShapeCasts t)
    (h' : t.ShapeCasts s) :
    shapeCast s (fun i => f (shapeCast t x h i) (shapeCast t y h i) (shapeCast t z h i)) h' = fun j => f (x j) (y j) (z j) :=
  shapeCast_shapeCast (fun j => f (x j) (y j) (z j)) h h'

end Cert.LibRepack
-- ==== Proof.Boundaries.lean ====
/-
  What the program holds at each boundary between its five stretches, read as formulas of the launch arrays.

  Notation: rows, cols, vals the edge lists; E_in, E_out, M, A the four [100000,64] tables; pack / unpack the row-major
  repacking [100000,64] ↔ [50000,128].
    * entering the difference pass its operands are pack E_out and pack M; it leaves their difference;
    * the host stretch between the passes unpacks the difference, forms the sparse product
        spmm X = scatter-add over rows of vals · X[cols]
      of it, and packs the product, A and E_in;
    * the blending pass leaves c₁ · (pack spmm + pack A) + c₂ · pack E_in;
    * the last stretch unpacks that and cuts it into rows 0 … 29999 and rows 30000 … 99999.
  Since repacking moves elements without changing them and both passes act element by element, the two detours through
  the packed shape cancel: the unpacked result is c₁ · (spmm (E_out − M) + A) + c₂ · E_in on the [100000,64] tables.
-/
import proofs.«110629_j35003983462573_2_alg».proof.Proof.Gen.KernelIdeal.Frame
import proofs.«110629_j35003983462573_2_alg».proof.Proof.RegionArrays
import proofs.«110629_j35003983462573_2_alg».proof.Proof.LibRepack
import Idealize.ShloMosaic.Lib.StableHlo.Run

set_option maxRecDepth 16384

noncomputable section

namespace Cert.KernelIdeal.Boundaries

open Cert.KernelIdeal Cert.KernelIdeal.Gen Cert.KernelIdeal.Arrays
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The sparse product of the host stretch between the passes: gather the rows of `X` named by `cols` (a negative
    index wrapped once by the table's height), scale row `k` by `vals k`, and add it into row `rows k` of a zero table. -/
def spmm (rows cols : (⟨S1000000, .i32⟩ : BufTy).Contents (Elt F)) (vals : (⟨S1000000, .f32⟩ : BufTy).Contents (Elt F))
    (X : (⟨S100000x64, .f32⟩ : BufTy).Contents (Elt F)) : (⟨S100000x64, .f32⟩ : BufTy).Contents (Elt F) :=
  Host.scatterAdd scatter_S100000x64_S1000000x1_S1000000x64_1_0_0_1
    (broadcastInDim S100000x64 ![] bcast_S_S100000x64 (constant S_ .f32 0x00000000#32))
    (broadcastInDim S1000000x1 ![0] bcast_S1000000_S1000000x1_0 rows)
    (mulf (broadcastInDim S1000000x64 ![0, 1] bcast_S1000000x1_S1000000x64_0_1 (broadcastInDim S1000000x1 ![0] bcast_S1000000_S1000000x1_0 vals))
      (Host.gather gather_S100000x64_S1000000x1_S1000000x64_1_0_n_n_0_1_164 X
        (broadcastInDim S1000000x1 ![0] bcast_S1000000_S1000000x1_0
          (select (cmpi .slt cols (broadcastInDim S1000000 ![] bcast_S_S1000000 (constantI S_ 32 0#32)))
            (addi cols (broadcastInDim S1000000 ![] bcast_S_S1000000 (constantI S_ 32 100000#32))) cols))))

/-! ## Entering the difference pass -/

theorem entry_diff_a (c : Dev nD) :
    V1 m ρ c main_v0 = shapeCast S50000x128 (m ((c : Thread nD τ).loc main_arg4)) shapeCasts_S100000x64_S50000x128 := by
  show StableHlo.after hostOps0 (W0 m ρ c) (Proc.devRef .tc main_v0) = _
  after_results
  rfl

theorem entry_diff_b (c : Dev nD) :
    V1 m ρ c main_v1 = shapeCast S50000x128 (m ((c : Thread nD τ).loc main_arg5)) shapeCasts_S100000x64_S50000x128 := by
  show StableHlo.after hostOps0 (W0 m ρ c) (Proc.devRef .tc main_v1) = _
  after_results
  rfl

/-! ## Leaving it -/

theorem exit_diff (c : Dev nD) :
    W2 m ρ c (Proc.devRef .tc main_v2) = diffOf (V1 m ρ c main_v0) (V1 m ρ c main_v1) :=
  (W2_arr m ρ c 2).trans (diff_array (V1 m ρ) c)

/-- The pass and the stretch before it leave an array they do not write as launched. -/
theorem kept_rows (c : Dev nD) : W2 m ρ c (Proc.devRef .tc main_arg0) = m ((c : Thread nD τ).loc main_arg0) :=
  (W2_of_ne m ρ c main_arg0 (by decide)).trans (by
    show StableHlo.after hostOps0 (W0 m ρ c) (Proc.devRef .tc main_arg0) = _
    after_results)
theorem kept_cols (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results)
theorem kept_vals (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results)
theorem kept_e_in (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results)
theorem kept_aggr (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results)

/-! ## Entering the blending pass -/

theorem entry_blend_a (c : Dev nD) :
    V3 m ρ c main_v17 = shapeCast S50000x128
      (spmm (W2 m ρ c (Proc.devRef .tc main_arg0)) (W2 m ρ c (Proc.devRef .tc main_arg1)) (W2 m ρ c (Proc.devRef .tc main_arg2))
        (shapeCast S100000x64 (W2 m ρ c (Proc.devRef .tc main_v2)) shapeCasts_S50000x128_S100000x64))
      shapeCasts_S100000x64_S50000x128 := by
  show StableHlo.after hostOps1 (W2 m ρ c) (Proc.devRef .tc main_v17) = _
  after_results
  rfl

theorem entry_blend_b (c : Dev nD) :
    V3 m ρ c main_v18 = shapeCast S50000x128 (W2 m ρ c (Proc.devRef .tc main_arg6)) shapeCasts_S100000x64_S50000x128 := by
  show StableHlo.after hostOps1 (W2 m ρ c) (Proc.devRef .tc main_v18) = _
  after_results
  rfl

theorem entry_blend_e (c : Dev nD) :
    V3 m ρ c main_v19 = shapeCast S50000x128 (W2 m ρ c (Proc.devRef .tc main_arg3)) shapeCasts_S100000x64_S50000x128 := by
  show StableHlo.after hostOps1 (W2 m ρ c) (Proc.devRef .tc main_v19) = _
  after_results
  rfl

/-! ## Leaving it, and the two results -/

theorem exit_blend (c : Dev nD) :
    W4 m ρ c (Proc.devRef .tc main_v20) = blendOf (V3 m ρ c main_v17) (V3 m ρ c main_v18) (V3 m ρ c main_v19) :=
  (W4_arr m ρ c 3).trans (blend_array (V3 m ρ) c)

theorem result_head (c : Dev nD) :
    W5 m ρ c (Proc.devRef .tc main_v22) = extractStridedSlice S30000x64 ![0, 0]
      (shapeCast S100000x64 (W4 m ρ c (Proc.devRef .tc main_v20)) shapeCasts_S50000x128_S100000x64) slices_S100000x64_S30000x64_0_0 := by
  show StableHlo.after hostOps2 (W4 m ρ c) (Proc.devRef .tc main_v22) = _
  after_results
  rfl

theorem result_tail (c : Dev nD) :
    W5 m ρ c (Proc.devRef .tc main_v23) = extractStridedSlice S70000x64 ![30000, 0]
      (shapeCast S100000x64 (W4 m ρ c (Proc.devRef .tc main_v20)) shapeCasts_S50000x128_S100000x64) slices_S100000x64_S70000x64_30000_0 := by
  show StableHlo.after hostOps2 (W4 m ρ c) (Proc.devRef .tc main_v23) = _
  after_results
  rfl

end Cert.KernelIdeal.Boundaries

end
-- ==== Proof.KernelValue.lean ====
/-
  The two results of the two-pass program as formulas of the launch arrays.

  With rows, cols, vals the edge lists and E_in, E_out, M, A the four [100000,64] tables, the program ends with
      T = c₁ · (spmm (E_out − M) + A) + c₂ · E_in        (c₁, c₂ the f32 words 0x3F666666, 0x3DCCCCCD)
  cut into rows 0 … 29999 and rows 30000 … 99999: the passes work on the tables repacked [50000,128], but they act
  element by element and a repacking undone is the identity, so both detours cancel.
-/
import proofs.«110629_j35003983462573_2_alg».proof.Proof.WholeRun
import proofs.«110629_j35003983462573_2_alg».proof.Proof.Boundaries

set_option maxRecDepth 16384

noncomputable section

namespace Cert.KernelIdeal.Result

open Cert.KernelIdeal Cert.KernelIdeal.Gen Cert.KernelIdeal.Arrays Cert.KernelIdeal.Boundaries
open Idealize.ShloMosaic Idealize.ShloMosaic.TcCoe Idealize.SL.Sem

variable {F : FTy → Type} [FloatOps F]
variable (m : (ℓ : Loc nD τ sig) → Buf (Elt F) ℓ) (ρ : Dev nD → PrngReg)

/-- The table both results are cut from: `c₁ · (spmm (E_out − M) + A) + c₂ · E_in`. -/
def blended (rows cols : (⟨S1000000, .i32⟩ : BufTy).Contents (Elt F)) (vals : (⟨S1000000, .f32⟩ : BufTy).Contents (Elt F))
    (e_in e_out mem aggr : (⟨S100000x64, .f32⟩ : BufTy).Contents (Elt F)) : (⟨S100000x64, .f32⟩ : BufTy).Contents (Elt F) :=
  addf (mulf (broadcastInDim S100000x64 ![] bcast_S_S100000x64 (constant S_ .f32 0x3F666666#32))
      (addf (spmm rows cols vals (subf e_out mem)) aggr))
    (mulf (broadcastInDim S100000x64 ![] bcast_S_S100000x64 (constant S_ .f32 0x3DCCCCCD#32)) e_in)

/-- The detours through the packed shape cancel: the blend of the packed tables, unpacked, is the blend of the tables. -/
theorem unpack_blend (rows cols : (⟨S1000000, .i32⟩ : BufTy).Contents (Elt F)) (vals : (⟨S1000000, .f32⟩ : BufTy).Contents (Elt F))
    (e_in e_out mem aggr : (⟨S100000x64, .f32⟩ : BufTy).Contents (Elt F)) :
    shapeCast S100000x64
      (blendOf
        (shapeCast S50000x128
          (spmm rows cols vals
            (shapeCast S100000x64
              (diffOf (shapeCast S50000x128 e_out shapeCasts_S100000x64_S50000x128) (shapeCast S50000x128 mem shapeCasts_S100000x64_S50000x128))
              shapeCasts_S50000x128_S100000x64))
          shapeCasts_S100000x64_S50000x128)
        (shapeCast S50000x128 aggr shapeCasts_S100000x64_S50000x128)
        (shapeCast S50000x128 e_in shapeCasts_S100000x64_S50000x128))
      shapeCasts_S50000x128_S100000x64
    = blended rows cols vals e_in e_out mem aggr := by
  rw [show shapeCast S100000x64
        (diffOf (shapeCast S50000x128 e_out shapeCasts_S100000x64_S50000x128) (shapeCast S50000x128 mem shapeCasts_S100000x64_S50000x128))
        shapeCasts_S50000x128_S100000x64 = subf e_out mem
      from Cert.LibRepack.unpack_map₂ FloatOps.subf e_out mem shapeCasts_S100000x64_S50000x128 shapeCasts_S50000x128_S100000x64]
  exact Cert.LibRepack.unpack_map₃
    (fun a b e => FloatOps.addf (FloatOps.mulf (Scalar.ofBits .f32 0x3F666666#32) (FloatOps.addf a b)) (FloatOps.mulf (Scalar.ofBits .f32 0x3DCCCCCD#32) e))
    (spmm rows cols vals (subf e_out mem)) aggr e_in shapeCasts_S100000x64_S50000x128 shapeCasts_S50000x128_S100000x64

/-- What the blending pass leaves, unpacked, is the blend of the launch tables. -/
theorem unpacked (c : Dev nD) :
    shapeCast S100000x64 (W4 m ρ c (Proc.devRef .tc main_v20)) shapeCasts_S50000x128_S100000x64
      = blended (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [exit_blend, entry_blend_a, entry_blend_b, entry_blend_e, exit_diff, entry_diff_a, entry_diff_b,
    kept_rows, kept_cols, kept_vals, kept_e_in, kept_aggr]
  exact unpack_blend _ _ _ _ _ _ _

/-- From any memory with zero counters every weakly fair execution of @main terminates, nothing faulting, with the two
    results at the two cuts of the blended table of the launch arrays, and the launch arrays unchanged. -/
theorem run : θ_run defs (onTc (τ := τ) (main (F := F))) ⟨m, fun _ => 0, ρ⟩ fun r => ∀ c : Dev nD,
      r.2.mem ((c.tc : Thread nD τ).loc main_v22) = extractStridedSlice S30000x64 ![0, 0]
        (blended (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) slices_S100000x64_S30000x64_0_0
      ∧ r.2.mem ((c.tc : Thread nD τ).loc main_v23) = extractStridedSlice S70000x64 ![30000, 0]
        (blended (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) slices_S100000x64_S70000x64_30000_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
    ⟨((h c _ (mem_uc main_v22 (by decide))).trans (result_head m ρ c)).trans (by rw [unpacked]),
     ((h c _ (mem_uc main_v23 (by decide))).trans (result_tail m ρ c)).trans (by rw [unpacked]),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c)⟩)
    (Cert.KernelIdeal.Whole.run_all m ρ)

end Cert.KernelIdeal.Result

end
-- ==== Proof.lean ====
/-
  The kernel computes, on seven launch arrays — the edge lists rows, cols, vals and the [100000,64] tables E_in, E_out,
  M, A — the table
      T = c₁ · (spmm (E_out − M) + A) + c₂ · E_in ,     spmm X = scatter-add over rows of vals · X[cols],
  and returns its rows 0 … 29999 and its rows 30000 … 99999 (c₁, c₂ the f32 words 0x3F666666 and 0x3DCCCCCD). It forms
  E_out − M and the final blend in two tiled passes over the tables repacked [50000,128]; the reference forms them on the
  tables as they are. Every step in between — the gather, the scaling, the scatter-add — is the same host operation of
  the same operands on both sides, and the two passes act element by element on repacked arrays, so the repacking
  cancels and both programs end with the same two cuts of the same table T: equal for every input, with no use of
  finiteness and no algebra on the extended reals beyond reading the two sides.

  The three frames are the generated ones (the reference's is its generated run with the results dropped); the ideal
  pass rewrote nothing, so `preserves` is trivial.
-/
import proofs.«110629_j35003983462573_2_alg».proof.Defs
import proofs.«110629_j35003983462573_2_alg».proof.Proof.Gen.Kernel
import proofs.«110629_j35003983462573_2_alg».proof.Proof.Gen.Kernel.Skeleton
import proofs.«110629_j35003983462573_2_alg».proof.Proof.Gen.Kernel.Launch
import proofs.«110629_j35003983462573_2_alg».proof.Proof.Gen.Kernel.Points
import proofs.«110629_j35003983462573_2_alg».proof.Proof.Gen.Kernel.Frame
import proofs.«110629_j35003983462573_2_alg».proof.Proof.Gen.KernelIdeal
import proofs.«110629_j35003983462573_2_alg».proof.Proof.Gen.KernelIdeal.Skeleton
import proofs.«110629_j35003983462573_2_alg».proof.Proof.Gen.KernelIdeal.Launch
import proofs.«110629_j35003983462573_2_alg».proof.Proof.Gen.KernelIdeal.Points
import proofs.«110629_j35003983462573_2_alg».proof.Proof.Gen.KernelIdeal.Frame
import proofs.«110629_j35003983462573_2_alg».proof.Proof.Gen.ReferenceIdeal
import proofs.«110629_j35003983462573_2_alg».proof.Proof.Gen.Pre_finite_inputs
import proofs.«110629_j35003983462573_2_alg».proof.Proof.Gen.ReferenceIdeal.Run
import proofs.«110629_j35003983462573_2_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run, its two results dropped. -/
theorem frame_reference : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the two cuts of the table T of their launch arrays; from memories agreeing on the launch
    arrays these are the same two arrays. -/
theorem algebraic : Cert.algebraic_KernelIdeal_ReferenceIdeal := by
  intro m ρ m' ρ' _ hagree
  refine ⟨_, _, Cert.KernelIdeal.Result.run (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6⟩ := hagree c
    rw [h0, h1, h2, h3, h4, h5, h6]
    rfl
  · obtain ⟨h0, h1, h2, h3, h4, h5, h6⟩ := hagree c
    rw [h0, h1, h2, h3, h4, h5, h6]
    rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
